-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x768 : Shape := ⟨2, ![16384, 768]⟩
abbrev S512x768 : Shape := ⟨2, ![512, 768]⟩
abbrev S512 : Shape := ⟨1, ![512]⟩
abbrev S1x1024 : Shape := ⟨2, ![1, 1024]⟩
abbrev S1 : Shape := ⟨1, ![1]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x1024 .f32) (main_arg5 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x768 .f32) (main_arg1 : FVec F S16384x768 .f32) (main_arg2 : FVec F S512x768 .f32) (main_arg3 : FVec F S512 .f32) (main_arg4 : FVec F S1x1024 .f32) (main_arg5 : FVec F S1 .f32) : IVec S_ 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S512x768 .f32 := Host.absf main_arg2
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16384x768 : Shape := ⟨2, ![16384, 768]⟩
abbrev S512x768 : Shape := ⟨2, ![512, 768]⟩
abbrev S512 : Shape := ⟨1, ![512]⟩
abbrev S1x1024 : Shape := ⟨2, ![1, 1024]⟩
abbrev S1 : Shape := ⟨1, ![1]⟩
abbrev S768x512 : Shape := ⟨2, ![768, 512]⟩
abbrev S1x512 : Shape := ⟨2, ![1, 512]⟩
abbrev S1x1 : Shape := ⟨2, ![1, 1]⟩
abbrev S16384x1 : Shape := ⟨2, ![16384, 1]⟩
abbrev S1024x768 : Shape := ⟨2, ![1024, 768]⟩
abbrev S1024x1 : Shape := ⟨2, ![1024, 1]⟩
abbrev S1024x512 : Shape := ⟨2, ![1024, 512]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S512x768, .f32⟩
  | .hbm, ⟨3, _⟩ => ⟨S512, .f32⟩
  | .hbm, ⟨4, _⟩ => ⟨S1x1024, .f32⟩
  | .hbm, ⟨5, _⟩ => ⟨S1, .f32⟩
  | .hbm, ⟨6, _⟩ => ⟨S768x512, .f32⟩
  | .hbm, ⟨7, _⟩ => ⟨S768x512, .bf16⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x1, .f32⟩
  | .hbm, ⟨12, _⟩ => ⟨S16384x1, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S768x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x1, .f32⟩
  | .local _ .vmem, ⟨9, _⟩ => ⟨S1024x1, .f32⟩
  | .local _ .vmem, ⟨10, _⟩ => ⟨S1024x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S512x768_S768x512_1_0 : S512x768.Transposes [1, 0] S768x512
  bitsLt_bf16_f32 : FTy.bits .bf16 < FTy.bits .f32
  shapeCasts_S512_S1x512 : S512.ShapeCasts S1x512
  slices_S1x1024_S1x512_0_0 : S1x1024.Slices ![0, 0] S1x512
  slices_S1x1024_S1x512_0_512 : S1x1024.Slices ![0, 512] S1x512
  shapeCasts_S1_S1x1 : S1.ShapeCasts S1x1
  inb_S1024x768_S1024x768_0_0 : ∀ a, (![0, 0] : Fin 2 → Nat) a + S1024x768.size a ≤ S1024x768.size a
  h_S1024x768 : 0 < S1024x768.numel
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S1024x512_S1024 : S1024x512.Reduces [1] S1024
  shapeCasts_S1024_S1024x1 : S1024.ShapeCasts S1024x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x768_S768x512_S1024x512_1_0_0_1_n_n_wf : DotDims.WF S1024x768 S768x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S16384x768.size a
  hwx0_1 : ∀ i : grid0.Coords, EltTy.bits .f32 = 32 ∨ (Rect.block (s := S16384x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .bf16 = 32 ∨ (Rect.block (s := S768x512) S768x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S16384x1.size a
  hwx0_7 : ∀ i : grid0.Coords, EltTy.bits .f32 = 32 ∨ (Rect.block (s := S16384x1) S1024x1.size (cc0_transform_7 i) (hinb0_7 i)).WholeWords (EltTy.packing .f32)

variable [Facts₀]

def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x768 : Shape := ⟨2, ![16384, 768]⟩
abbrev S512x768 : Shape := ⟨2, ![512, 768]⟩
abbrev S512 : Shape := ⟨1, ![512]⟩
abbrev S1x1024 : Shape := ⟨2, ![1, 1024]⟩
abbrev S1 : Shape := ⟨1, ![1]⟩
abbrev S768x512 : Shape := ⟨2, ![768, 512]⟩
abbrev S16384x512 : Shape := ⟨2, ![16384, 512]⟩
abbrev S1x512 : Shape := ⟨2, ![1, 512]⟩
abbrev S16384x1024 : Shape := ⟨2, ![16384, 1024]⟩
abbrev S_ : Shape := ⟨0, ![]⟩
abbrev S1024x1 : Shape := ⟨2, ![1024, 1]⟩
abbrev S16384x1 : Shape := ⟨2, ![16384, 1]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S512x768, .f32⟩
  | .hbm, ⟨3, _⟩ => ⟨S512, .f32⟩
  | .hbm, ⟨4, _⟩ => ⟨S1x1024, .f32⟩
  | .hbm, ⟨5, _⟩ => ⟨S1, .f32⟩
  | .hbm, ⟨6, _⟩ => ⟨S768x512, .f32⟩
  | .hbm, ⟨7, _⟩ => ⟨S16384x512, .f32⟩
  | .hbm, ⟨8, _⟩ => ⟨S1x512, .f32⟩
  | .hbm, ⟨9, _⟩ => ⟨S16384x512, .f32⟩
  | .hbm, ⟨10, _⟩ => ⟨S16384x512, .f32⟩
  | .hbm, ⟨11, _⟩ => ⟨S768x512, .f32⟩
  | .hbm, ⟨12, _⟩ => ⟨S16384x512, .f32⟩
  | .hbm, ⟨13, _⟩ => ⟨S1x512, .f32⟩
  | .hbm, ⟨14, _⟩ => ⟨S16384x512, .f32⟩
  | .hbm, ⟨15, _⟩ => ⟨S16384x512, .f32⟩
  | .hbm, ⟨16, _⟩ => ⟨S16384x1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S1024x1, .f32⟩
  | .hbm, ⟨26, _⟩ => ⟨S16384x1, .f32⟩
  | .hbm, ⟨27, _⟩ => ⟨S1x1, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]

class Facts₀ : Prop where
  transposes_S512x768_S768x512_1_0 : S512x768.Transposes [1, 0] S768x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  concatenates_S16384x512_S16384x512_S16384x1024_d1 : Shape.Concatenates [S16384x512, S16384x512] S16384x1024 1
  bcast_S_S16384x1024 : S_.BroadcastsInDim S16384x1024 (![] : Fin 0 → Fin S16384x1024.rank)
  transposes_S1x1024_S1024x1_1_0 : S1x1024.Transposes [1, 0] S1024x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x768_S768x512_S16384x512_1_0_0_1_n_n_wf : DotDims.WF S16384x768 S768x512 S16384x512 [1] [0] [0] [1] [] []
  dot_S16384x1024_S1024x1_S16384x1_1_0_0_1_n_n_wf : DotDims.WF S16384x1024 S1024x1 S16384x1 [1] [0] [0] [1] [] []

variable [Facts₀]

def dot_S16384x768_S768x512_S16384x512_1_0_0_1_n_n : DotDims S16384x768 S768x512 S16384x512 where
  lhsContracting := [1]
  rhsContracting := [0]
  lhsNonContracting := [0]
  rhsNonContracting := [1]
  lhsBatch := []
  rhsBatch := []
  wf := dot_S16384x768_S768x512_S16384x512_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.PerspectiveSpec.lean ====
/-
  The result as one function of the six argument arrays `x0 x1 : [16384, 768]`, `w : [512, 768]`, `b : [512]`,
  `v : [1, 1024]`, `c : [1]`.

  For a row `r` and a column `j` the first layer is the clipped affine value
  `hidden x w b r j = min 1 (max 0 (∑ k, x r k · w j k + b j))`, the same `w` and `b` for `x0` and for `x1`.
  The second layer pairs the first 512 entries of `v` with `x0`'s hidden row and the last 512 with `x1`'s:
  `logit r = ∑ j, hidden x0 w b r j · v (0, j) + ∑ j, hidden x1 w b r j · v (0, 512 + j) + c 0`,
  and the output column holds the logistic function of the logit.

  The one algebraic law between the two programs is that a sum over 1024 indices is the sum over its first 512
  plus the sum over its last 512 (`sum_halves`): addition of extended reals is commutative and associative, so the
  law needs no finiteness.  The word `0x3F800000` denotes the real one (`one_f32`).
-/
import Idealize.ShloMosaic.PureOps.Ideal
import Idealize.ShloMosaic.PureOps.Ideal.Laws
import Idealize.ShloMosaic.Lib.ValueIdx

noncomputable section

open scoped BigOperators

namespace Cert.Perspective

open Idealize.ShloMosaic Idealize.ShloMosaic.ValueIdx

/-- Position `j` of the first half of a 1024-long axis. -/
def lo (j : Fin 512) : Fin 1024 := ⟨j.val, by have := j.isLt; omega⟩
/-- Position `512 + j` of the second half of a 1024-long axis. -/
def hi (j : Fin 512) : Fin 1024 := ⟨512 + j.val, by have := j.isLt; omega⟩

/-- A sum over 1024 positions is the sum over the first 512 plus the sum over the last 512, in any commutative monoid. -/
theorem sum_halves {M : Type*} [AddCommMonoid M] (f : Fin 1024 → M) :
    ∑ k : Fin 1024, f k = (∑ j : Fin 512, f (lo j)) + ∑ j : Fin 512, f (hi j) :=
  Fin.sum_univ_add (a := 512) (b := 512) f

/-- The f32 word of `1.0` denotes the extended real one. -/
theorem one_f32 : Ideal.ofBits .f32 0x3F800000#32 = 1 := by
  simp [Ideal.ofBits, Ideal.ieee, -EReal.coe_mul]; norm_num

/-- One first-layer value: the affine value of row `r` of `x` against row `j` of `w`, clipped to `[0, 1]`. -/
def hidden (x : (⟨2, ![16384, 768]⟩ : Shape).Idx → EReal) (w : (⟨2, ![512, 768]⟩ : Shape).Idx → EReal)
    (b : (⟨1, ![512]⟩ : Shape).Idx → EReal) (r : Fin 16384) (j : Fin 512) : EReal :=
  min 1 (max 0 ((∑ k : Fin 768, x (ix2 r k) * w (ix2 j k)) + b (ix1 j)))

/-- The second layer before the logistic function: the two hidden rows against the two halves of `v`. -/
def logit (x0 x1 : (⟨2, ![16384, 768]⟩ : Shape).Idx → EReal) (w : (⟨2, ![512, 768]⟩ : Shape).Idx → EReal)
    (b : (⟨1, ![512]⟩ : Shape).Idx → EReal) (v : (⟨2, ![1, 1024]⟩ : Shape).Idx → EReal)
    (c : (⟨1, ![1]⟩ : Shape).Idx → EReal) (r : Fin 16384) : EReal :=
  (∑ j : Fin 512, hidden x0 w b r j * v (ix2 (0 : Fin 1) (lo j)))
    + (∑ j : Fin 512, hidden x1 w b r j * v (ix2 (0 : Fin 1) (hi j)))
    + c (ix1 (0 : Fin 1))

/-- The output column: the logistic function of each row's logit. -/
def G (x0 x1 : (⟨2, ![16384, 768]⟩ : Shape).Idx → EReal) (w : (⟨2, ![512, 768]⟩ : Shape).Idx → EReal)
    (b : (⟨1, ![512]⟩ : Shape).Idx → EReal) (v : (⟨2, ![1, 1024]⟩ : Shape).Idx → EReal)
    (c : (⟨1, ![1]⟩ : Shape).Idx → EReal) : (⟨2, ![16384, 1]⟩ : Shape).Idx → EReal :=
  fun i => Ideal.logistic (logit x0 x1 w b v c (i 0))

end Cert.Perspective

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KernelPayload.lean ====
/-
  The kernel body's arithmetic read at an index, at the exact values.

  On a block of 1024 rows the body forms, for each of the two input blocks `P0`, `P1`, the product with the
  [768, 512] weight block `P2`, adds the bias row `P3`, clips to [0, 1], multiplies by a weight row (`P4` for
  `P0`, `P5` for `P1`), sums each row over its 512 columns, and adds the two column vectors of row sums.
  Read at row `p` that is
    ∑ j, min 1 (max 0 (∑ k, P0 (p,k) · P2 (k,j) + P3 (0,j))) · P4 (0,j)
  + ∑ j, min 1 (max 0 (∑ k, P1 (p,k) · P2 (k,j) + P3 (0,j))) · P5 (0,j).
  A change of float format is the identity on extended reals, a matrix product into a zero accumulator is the plain
  sum of products over the contracted axis, and a row reduction that keeps its axis is the plain sum over the row.
-/
import proofs.«123977_j42408507081247_2_alg».proof.Proof.Gen.KernelIdeal.Skeleton
import proofs.«123977_j42408507081247_2_alg».proof.Proof.PerspectiveSpec
import proofs.«123977_j42408507081247_2_alg».proof.Proof.LibColumnCast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Perspective

open Idealize.ShloMosaic Idealize.ShloMosaic.ValueIdx Cert.KernelIdeal Cert.KernelIdeal.Gen

/-- Row sums kept as a column: the entry at `(p, u)` is the sum of row `p`. -/
theorem rowSum_col_apply (X : FVec Ideal ⟨2, ![1024, 512]⟩ .f32)
    (h : (⟨2, ![1024, 512]⟩ : Shape).Reduces [1] ⟨1, ![1024]⟩) (hφ : FKind.Formats .f32)
    (hacc : (0x00000000#32 : BitVec 32) = FKind.add.neutral .f32 hφ)
    (hc : (⟨1, ![1024]⟩ : Shape).ShapeCasts ⟨2, ![1024, 1]⟩) (p : Fin 1024) (u : Fin 1) :
    shapeCast ⟨2, ![1024, 1]⟩ (multiReduction .add [1] ⟨1, ![1024]⟩ X 0x00000000#32 h hφ hacc) hc (ix2 p u)
      = ∑ j : Fin 512, X (ix2 p j) := by
  refine (Cert.LibColumnCast.shapeCast_a_a1_apply _ hc p u).trans ?_
  refine (Ideal.multiReduction_add_single X _ h hφ hacc (ix1 p)).trans ?_
  show ∑ j : Fin 512, X (h.lift (ix1 p) j) = _
  refine Finset.sum_congr rfl fun j _ => congrArg X ?_
  funext a
  apply Fin.ext
  match a with
  | ⟨0, _⟩ => rfl
  | ⟨1, _⟩ => rfl

/-- The product's left operand is read at the output's row … -/
theorem lhs_0 (i : S1024x512.Idx) (q : dot_S1024x768_S768x512_S1024x512_1_0_0_1_n_n.contr.Idx) :
    (dot_S1024x768_S768x512_S1024x512_1_0_0_1_n_n.lhsIdx i q 0).val = (i 0).val := by
  unfold DotDims.lhsIdx
  rw [dif_neg (show ¬(0 : Fin S1024x768.rank) ∈ dot_S1024x768_S768x512_S1024x512_1_0_0_1_n_n.lhsBatch by decide), dif_pos (show (0 : Fin S1024x768.rank) ∈ dot_S1024x768_S768x512_S1024x512_1_0_0_1_n_n.lhsNonContracting by decide)]
  rfl
/-- … and at the contracted position; -/
theorem lhs_1 (i : S1024x512.Idx) (q : dot_S1024x768_S768x512_S1024x512_1_0_0_1_n_n.contr.Idx) :
    (dot_S1024x768_S768x512_S1024x512_1_0_0_1_n_n.lhsIdx i q 1).val = (q ⟨0, by decide⟩).val :=
  dot_S1024x768_S768x512_S1024x512_1_0_0_1_n_n.lhsIdx_val_of_single rfl i q
/-- its right operand at the contracted position … -/
theorem rhs_0 (i : S1024x512.Idx) (q : dot_S1024x768_S768x512_S1024x512_1_0_0_1_n_n.contr.Idx) :
    (dot_S1024x768_S768x512_S1024x512_1_0_0_1_n_n.rhsIdx i q 0).val = (q ⟨0, by decide⟩).val :=
  dot_S1024x768_S768x512_S1024x512_1_0_0_1_n_n.rhsIdx_val_of_single rfl i q
/-- … and at the output's column. -/
theorem rhs_1 (i : S1024x512.Idx) (q : dot_S1024x768_S768x512_S1024x512_1_0_0_1_n_n.contr.Idx) :
    (dot_S1024x768_S768x512_S1024x512_1_0_0_1_n_n.rhsIdx i q 1).val = (i 1).val := by
  unfold DotDims.rhsIdx
  rw [dif_neg (show ¬(1 : Fin S768x512.rank) ∈ dot_S1024x768_S768x512_S1024x512_1_0_0_1_n_n.rhsBatch by decide), dif_pos (show (1 : Fin S768x512.rank) ∈ dot_S1024x768_S768x512_S1024x512_1_0_0_1_n_n.rhsNonContracting by decide)]
  rfl

/-- The block's matrix product into the zero accumulator, at `(p, j)`: the sum over the 768 contracted positions. -/
theorem blockProduct_apply (L : FVec Ideal S1024x768 .bf16) (R : FVec Ideal S768x512 .bf16) (p : Fin 1024) (j : Fin 512) :
    matmul dot_S1024x768_S768x512_S1024x512_1_0_0_1_n_n none L R (constant S1024x512 .f32 0x00000000#32) (ix2 p j)
      = ∑ k : Fin 768, L (ix2 p k) * R (ix2 k j) := by
  simp only [matmul]
  rw [Ideal.matmul_constant_zero_apply, ← Equiv.sum_comp (contrEquiv1 dot_S1024x768_S768x512_S1024x512_1_0_0_1_n_n 768 rfl rfl).symm]
  refine Finset.sum_congr rfl fun k _ => ?_
  have hk := contrEquiv1_symm_val dot_S1024x768_S768x512_S1024x512_1_0_0_1_n_n 768 rfl rfl k
  have el : dot_S1024x768_S768x512_S1024x512_1_0_0_1_n_n.lhsIdx (ix2 p j) ((contrEquiv1 dot_S1024x768_S768x512_S1024x512_1_0_0_1_n_n 768 rfl rfl).symm k) = ix2 p k := funext fun a => Fin.ext (by
    match a with
    | ⟨0, _⟩ => exact lhs_0 _ _
    | ⟨1, _⟩ => exact (lhs_1 _ _).trans hk)
  have er : dot_S1024x768_S768x512_S1024x512_1_0_0_1_n_n.rhsIdx (ix2 p j) ((contrEquiv1 dot_S1024x768_S768x512_S1024x512_1_0_0_1_n_n 768 rfl rfl).symm k) = ix2 k j := funext fun a => Fin.ext (by
    match a with
    | ⟨0, _⟩ => exact (rhs_0 _ _).trans hk
    | ⟨1, _⟩ => exact rhs_1 _ _)
  rw [el, er]

/-- The body's sum of the two columns of row sums, at `(p, u)`. -/
theorem pay3_apply (P0 P1 : FVec Ideal S1024x768 .f32) (P2 : FVec Ideal S768x512 .bf16) (P3 P4 P5 : FVec Ideal S1x512 .f32)
    (p : Fin 1024) (u : Fin 1) :
    k0_pay3 (F := Ideal) P0 P1 P2 P3 P4 P5 (ix2 p u)
      = (∑ j : Fin 512, min 1 (max 0 ((∑ k : Fin 768, P0 (ix2 p k) * P2 (ix2 k j)) + P3 (ix2 (0 : Fin 1) j))) * P4 (ix2 (0 : Fin 1) j))
        + ∑ j : Fin 512, min 1 (max 0 ((∑ k : Fin 768, P1 (ix2 p k) * P2 (ix2 k j)) + P3 (ix2 (0 : Fin 1) j))) * P5 (ix2 (0 : Fin 1) j) := by
  unfold k0_pay3
  dsimp only
  rw [addf_apply]
  refine congrArg₂ (· + ·) ((rowSum_col_apply _ _ _ _ _ p u).trans (Finset.sum_congr rfl fun j _ => ?_))
    ((rowSum_col_apply _ _ _ _ _ p u).trans (Finset.sum_congr rfl fun j _ => ?_)) <;>
  · rw [mulf_apply, minimumf_apply, maximumf_apply, addf_apply, broadcast_apply, broadcast_apply, blockProduct_apply,
      broadcastTo_1b_ab_apply, broadcastTo_1b_ab_apply, shapeCast_self, shapeCast_self, shapeCast_self]
    simp only [truncf_apply, Ideal.ofBits_def, Ideal.ofBits_zero_f32, one_f32]

end Cert.Perspective

end
-- ==== Proof.KernelBlock.lean ====
/-
  What one grid point leaves in its [1024, 1] output block, as a function of the seven input blocks.

  The body stores one value through the whole block: the logistic function of the sum of the two columns of row sums
  and the one-entry block `x6` broadcast down the column.  At `(p, u)` that is the logistic function of
    ∑ j, min 1 (max 0 (∑ k, x0 (p,k) · x2 (k,j) + x3 (0,j))) · x4 (0,j)
  + ∑ j, min 1 (max 0 (∑ k, x1 (p,k) · x2 (k,j) + x3 (0,j))) · x5 (0,j)
  + x6 (0,0).
-/
import proofs.«123977_j42408507081247_2_alg».proof.Proof.KernelIdealValue
import proofs.«123977_j42408507081247_2_alg».proof.Proof.KernelPayload

noncomputable section

open scoped BigOperators

namespace Cert.Perspective

open Idealize.ShloMosaic Idealize.ShloMosaic.ValueIdx Cert.KernelIdeal Cert.KernelIdeal.Gen

/-- The zero offsets of a whole-block access, however they are spelt. -/
theorem zero_off : (![0, 0] : Fin 2 → Nat) = fun _ => 0 := funext fun a => by fin_cases a <;> rfl

/-- The output block after the body, at `(p, u)`. -/
theorem block_apply (x0 x1 : FVec Ideal S1024x768 .f32) (x2 : FVec Ideal S768x512 .bf16) (x3 x4 x5 : FVec Ideal S1x512 .f32)
    (x6 : FVec Ideal S1x1 .f32) (p : Fin 1024) (u : Fin 1) :
    out0_7 (F := Ideal) x0 x1 x2 x3 x4 x5 x6 (ix2 p u)
      = Ideal.logistic
          ((∑ j : Fin 512, min 1 (max 0 ((∑ k : Fin 768, x0 (ix2 p k) * x2 (ix2 k j)) + x3 (ix2 (0 : Fin 1) j))) * x4 (ix2 (0 : Fin 1) j))
            + (∑ j : Fin 512, min 1 (max 0 ((∑ k : Fin 768, x1 (ix2 p k) * x2 (ix2 k j)) + x3 (ix2 (0 : Fin 1) j))) * x5 (ix2 (0 : Fin 1) j))
            + x6 (ix2 (0 : Fin 1) (0 : Fin 1))) := by
  unfold out0_7
  rw [Cert.KernelIdeal.ValueP.canon7_eq]
  simp only [View.ld_unit_zero (S := S1024x768) zero_off, View.ld_unit_zero (S := S768x512) zero_off,
    View.ld_unit_zero (S := S1x512) zero_off, View.ld_unit_zero (S := S1x1) zero_off]
  have e0 : Cert.KernelIdeal.ValueP.ix7_0 (ix2 p u) = ix2 p (0 : Fin 1) := by
    funext a; match a with | ⟨0, _⟩ => rfl | ⟨1, _⟩ => rfl
  have e1 : Cert.KernelIdeal.ValueP.ix7_1 (ix2 p u) = ix2 (0 : Fin 1) (0 : Fin 1) := by
    funext a; match a with | ⟨0, _⟩ => rfl | ⟨1, _⟩ => rfl
  show Ideal.logistic (k0_pay3 (F := Ideal) x0 x1 x2 x3 x4 x5 (Cert.KernelIdeal.ValueP.ix7_0 (ix2 p u)) + x6 (Cert.KernelIdeal.ValueP.ix7_1 (ix2 p u))) = _
  rw [e0, e1, pay3_apply]

end Cert.Perspective

end
-- ==== Proof.KernelArray.lean ====
/-
  From the blocks to the whole output array: after the run the kernel's [16384, 1] result is the specification `G`
  of the six argument arrays.

  Grid point `t` (of 16) reads rows `1024·t … 1024·t + 1023` of the two [16384, 768] arguments and, at every point,
  the whole of the four small arrays the host operations prepared before the launch: the transposed weight matrix
  (entry `(k, j)` is `w (j, k)`), the bias as one row, the two halves of `v` (columns `j` and `512 + j`) and `c` as a
  one-entry matrix.  Point `t` writes back rows `1024·t … 1024·t + 1023` of the result, so the sixteen blocks
  cover it: row `i` lies in the block of point `i / 1024`.
-/
import proofs.«123977_j42408507081247_2_alg».proof.Proof.KernelBlock
import Idealize.ShloMosaic.Lib.StableHlo.Run
import Idealize.ShloMosaic.Lib.ValueLayout

noncomputable section

open scoped BigOperators

namespace Cert.Perspective

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The six argument arrays on core `c`, as functions of their indices. -/
abbrev a0 (c : Dev nD) : S16384x768.Idx → EReal := m ((c : Thread nD τ).loc main_arg0)
abbrev a1 (c : Dev nD) : S16384x768.Idx → EReal := m ((c : Thread nD τ).loc main_arg1)
abbrev a2 (c : Dev nD) : S512x768.Idx → EReal := m ((c : Thread nD τ).loc main_arg2)
abbrev a3 (c : Dev nD) : S512.Idx → EReal := m ((c : Thread nD τ).loc main_arg3)
abbrev a4 (c : Dev nD) : S1x1024.Idx → EReal := m ((c : Thread nD τ).loc main_arg4)
abbrev a5 (c : Dev nD) : S1.Idx → EReal := m ((c : Thread nD τ).loc main_arg5)

/-! ## The block index of every window at every point -/

/-- Windows 0, 1 and 7 move down the rows with the point, one block per point; windows 2 to 6 stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The arrays the host operations prepare, read at an index -/

/-- The weight block: the transposed first-layer weights (a change of format is the identity). -/
theorem V1_apply (c : Dev nD) (k : Fin 768) (j : Fin 512) :
    (V m c main_v1 : S768x512.Idx → EReal) (ix2 k j) = a2 m c (ix2 j k) := by
  have e : (V m c main_v1 : S768x512.Idx → EReal)
      = truncf (F := Ideal) .bf16 (transpose S768x512 [1, 0] (a2 m c) transposes_S512x768_S768x512_1_0) bitsLt_bf16_f32 := by
    dsimp only [V, hostOps0]; after_results <;> rfl
  rw [e]
  exact transpose_ix2_apply (a2 m c) _ k j

/-- The first bias as one row. -/
theorem V2_apply (c : Dev nD) (j : Fin 512) :
    (V m c main_v2 : S1x512.Idx → EReal) (ix2 (0 : Fin 1) j) = a3 m c (ix1 j) := by
  have e : (V m c main_v2 : S1x512.Idx → EReal) = shapeCast S1x512 (a3 m c) shapeCasts_S512_S1x512 := by
    dsimp only [V, hostOps0]; after_results <;> rfl
  rw [e]
  exact shapeCast_a_1a_apply (a3 m c) _ (0 : Fin 1) j

/-- The first half of the second-layer weights. -/
theorem V3_apply (c : Dev nD) (j : Fin 512) :
    (V m c main_v3 : S1x512.Idx → EReal) (ix2 (0 : Fin 1) j) = a4 m c (ix2 (0 : Fin 1) (lo j)) := by
  have e : (V m c main_v3 : S1x512.Idx → EReal) = extractStridedSlice S1x512 ![0, 0] (a4 m c) slices_S1x1024_S1x512_0_0 := by
    dsimp only [V, hostOps0]; after_results <;> rfl
  rw [e]
  refine extractStridedSlice_apply _ _ _ _ _ fun a => ?_
  match a with
  | ⟨0, _⟩ => rfl
  | ⟨1, _⟩ => show j.val = 0 + j.val; omega

/-- The second half of the second-layer weights. -/
theorem V4_apply (c : Dev nD) (j : Fin 512) :
    (V m c main_v4 : S1x512.Idx → EReal) (ix2 (0 : Fin 1) j) = a4 m c (ix2 (0 : Fin 1) (hi j)) := by
  have e : (V m c main_v4 : S1x512.Idx → EReal) = extractStridedSlice S1x512 ![0, 512] (a4 m c) slices_S1x1024_S1x512_0_512 := by
    dsimp only [V, hostOps0]; after_results <;> rfl
  rw [e]
  refine extractStridedSlice_apply _ _ _ _ _ fun a => ?_
  match a with
  | ⟨0, _⟩ => rfl
  | ⟨1, _⟩ => rfl

/-- The second bias as a one-entry matrix. -/
theorem V5_apply (c : Dev nD) :
    (V m c main_v5 : S1x1.Idx → EReal) (ix2 (0 : Fin 1) (0 : Fin 1)) = a5 m c (ix1 (0 : Fin 1)) := by
  have e : (V m c main_v5 : S1x1.Idx → EReal) = shapeCast S1x1 (a5 m c) shapeCasts_S1_S1x1 := by
    dsimp only [V, hostOps0]; after_results <;> rfl
  rw [e]
  exact shapeCast_a_1a_apply (a5 m c) _ (0 : Fin 1) (0 : Fin 1)

/-! ## Each window's block at a point, read at an index -/

/-- Window 0's block at point `t` is rows `1024·t …` of the first argument. -/
theorem iblk0_apply (c : Dev nD) (t : Fin cfg0.N) (p : Fin 1024) (k : Fin 768) (r : Fin 16384)
    (hr : r.val = t.val * 1024 + p.val) :
    (iblk m c 0 t : FVec Ideal S1024x768 .f32) (ix2 p k) = a0 m c (ix2 r k) := by
  obtain ⟨h0, h1, -⟩ := index_facts t
  unfold iblk
  rw [View.read_apply]
  show V m c main_arg0 _ = _
  rw [V_main_arg0]
  refine congrArg (a0 m c) ?_
  funext a; apply Fin.ext
  match a with
  | ⟨0, _⟩ => show win0_0.index t (0 : Fin 2) * 1024 + 1 * p.val = r.val; rw [h0, hr]; omega
  | ⟨1, _⟩ => show win0_0.index t (1 : Fin 2) * 768 + 1 * k.val = k.val; rw [h1]; omega

/-- Window 1's block at point `t` is rows `1024·t …` of the second argument. -/
theorem iblk1_apply (c : Dev nD) (t : Fin cfg0.N) (p : Fin 1024) (k : Fin 768) (r : Fin 16384)
    (hr : r.val = t.val * 1024 + p.val) :
    (iblk m c 1 t : FVec Ideal S1024x768 .f32) (ix2 p k) = a1 m c (ix2 r k) := by
  obtain ⟨-, -, h0, h1, -⟩ := index_facts t
  unfold iblk
  rw [View.read_apply]
  show V m c main_arg1 _ = _
  rw [V_main_arg1]
  refine congrArg (a1 m c) ?_
  funext a; apply Fin.ext
  match a with
  | ⟨0, _⟩ => show win0_1.index t (0 : Fin 2) * 1024 + 1 * p.val = r.val; rw [h0, hr]; omega
  | ⟨1, _⟩ => show win0_1.index t (1 : Fin 2) * 768 + 1 * k.val = k.val; rw [h1]; omega

/-- Window 2's block is the whole transposed weight matrix, at every point. -/
theorem iblk2_apply (c : Dev nD) (t : Fin cfg0.N) (k : Fin 768) (j : Fin 512) :
    (iblk m c 2 t : FVec Ideal S768x512 .bf16) (ix2 k j) = a2 m c (ix2 j k) := by
  obtain ⟨-, -, -, -, h0, h1, -⟩ := index_facts t
  unfold iblk
  rw [View.read_apply]
  show (V m c main_v1 : S768x512.Idx → EReal) _ = _
  refine (congrArg (V m c main_v1 : S768x512.Idx → EReal) ?_).trans (V1_apply m c k j)
  funext a; apply Fin.ext
  match a with
  | ⟨0, _⟩ => show win0_2.index t (0 : Fin 2) * 768 + 1 * k.val = k.val; rw [h0]; omega
  | ⟨1, _⟩ => show win0_2.index t (1 : Fin 2) * 512 + 1 * j.val = j.val; rw [h1]; omega

/-- Window 3's block is the bias row, at every point. -/
theorem iblk3_apply (c : Dev nD) (t : Fin cfg0.N) (j : Fin 512) :
    (iblk m c 3 t : FVec Ideal S1x512 .f32) (ix2 (0 : Fin 1) j) = a3 m c (ix1 j) := by
  obtain ⟨-, -, -, -, -, -, h0, h1, -⟩ := index_facts t
  unfold iblk
  rw [View.read_apply]
  show (V m c main_v2 : S1x512.Idx → EReal) _ = _
  refine (congrArg (V m c main_v2 : S1x512.Idx → EReal) ?_).trans (V2_apply m c j)
  funext a; apply Fin.ext
  match a with
  | ⟨0, _⟩ => show win0_3.index t (0 : Fin 2) * 1 + 1 * 0 = 0; rw [h0]
  | ⟨1, _⟩ => show win0_3.index t (1 : Fin 2) * 512 + 1 * j.val = j.val; rw [h1]; omega

/-- Window 4's block is the first half of `v`, at every point. -/
theorem iblk4_apply (c : Dev nD) (t : Fin cfg0.N) (j : Fin 512) :
    (iblk m c 4 t : FVec Ideal S1x512 .f32) (ix2 (0 : Fin 1) j) = a4 m c (ix2 (0 : Fin 1) (lo j)) := by
  obtain ⟨-, -, -, -, -, -, -, -, h0, h1, -⟩ := index_facts t
  unfold iblk
  rw [View.read_apply]
  show (V m c main_v3 : S1x512.Idx → EReal) _ = _
  refine (congrArg (V m c main_v3 : S1x512.Idx → EReal) ?_).trans (V3_apply m c j)
  funext a; apply Fin.ext
  match a with
  | ⟨0, _⟩ => show win0_4.index t (0 : Fin 2) * 1 + 1 * 0 = 0; rw [h0]
  | ⟨1, _⟩ => show win0_4.index t (1 : Fin 2) * 512 + 1 * j.val = j.val; rw [h1]; omega

/-- Window 5's block is the second half of `v`, at every point. -/
theorem iblk5_apply (c : Dev nD) (t : Fin cfg0.N) (j : Fin 512) :
    (iblk m c 5 t : FVec Ideal S1x512 .f32) (ix2 (0 : Fin 1) j) = a4 m c (ix2 (0 : Fin 1) (hi j)) := by
  obtain ⟨-, -, -, -, -, -, -, -, -, -, h0, h1, -⟩ := index_facts t
  unfold iblk
  rw [View.read_apply]
  show (V m c main_v4 : S1x512.Idx → EReal) _ = _
  refine (congrArg (V m c main_v4 : S1x512.Idx → EReal) ?_).trans (V4_apply m c j)
  funext a; apply Fin.ext
  match a with
  | ⟨0, _⟩ => show win0_5.index t (0 : Fin 2) * 1 + 1 * 0 = 0; rw [h0]
  | ⟨1, _⟩ => show win0_5.index t (1 : Fin 2) * 512 + 1 * j.val = j.val; rw [h1]; omega

/-- Window 6's block is the one entry of `c`, at every point. -/
theorem iblk6_apply (c : Dev nD) (t : Fin cfg0.N) :
    (iblk m c 6 t : FVec Ideal S1x1 .f32) (ix2 (0 : Fin 1) (0 : Fin 1)) = a5 m c (ix1 (0 : Fin 1)) := by
  obtain ⟨-, -, -, -, -, -, -, -, -, -, -, -, h0, h1, -⟩ := index_facts t
  unfold iblk
  rw [View.read_apply]
  show (V m c main_v5 : S1x1.Idx → EReal) _ = _
  refine (congrArg (V m c main_v5 : S1x1.Idx → EReal) ?_).trans (V5_apply m c)
  funext a; apply Fin.ext
  match a with
  | ⟨0, _⟩ => show win0_6.index t (0 : Fin 2) * 1 + 1 * 0 = 0; rw [h0]
  | ⟨1, _⟩ => show win0_6.index t (1 : Fin 2) * 1 + 1 * 0 = 0; rw [h1]

/-! ## What a point writes back, the cover, and the array after the run -/

/-- Point `t` writes back block `t` of `G` of the argument arrays. -/
theorem flushed_eq (c : Dev nD) (t : Fin cfg0.N) :
    (dats m 0 c).flushed 7 t
      = ((cfg0.win 7).blk t).view.read (Elt Ideal) (G (a0 m c) (a1 m c) (a2 m c) (a3 m c) (a4 m c) (a5 m c)) := by
  have ht : t.val < 16 := lt_of_lt_of_eq t.isLt N_0
  obtain ⟨-, -, -, -, -, -, -, -, -, -, -, -, -, -, h70, -⟩ := index_facts t
  rw [Cert.KernelIdeal.ValueP.flushed7]
  funext y
  obtain ⟨p, u, rfl⟩ : ∃ (p : Fin 1024) (u : Fin 1), y = ix2 p u := ⟨y 0, y 1, eq_ix2 y⟩
  have hp : p.val < 1024 := p.isLt
  let r : Fin 16384 := ⟨t.val * 1024 + p.val, by omega⟩
  have hr : r.val = t.val * 1024 + p.val := rfl
  have er : (((cfg0.win 7).blk t).view.emb (ix2 p u)) 0 = r := by
    apply Fin.ext
    show win0_7.index t (0 : Fin 2) * 1024 + 1 * p.val = t.val * 1024 + p.val
    rw [h70]; omega
  show out0_7 (F := Ideal) (iblk m c 0 t) (iblk m c 1 t) (iblk m c 2 t) (iblk m c 3 t) (iblk m c 4 t) (iblk m c 5 t) (iblk m c 6 t) (ix2 p u)
    = Ideal.logistic (logit (a0 m c) (a1 m c) (a2 m c) (a3 m c) (a4 m c) (a5 m c) ((((cfg0.win 7).blk t).view.emb (ix2 p u)) 0))
  rw [er]
  refine (block_apply _ _ _ _ _ _ _ p u).trans (congrArg Ideal.logistic ?_)
  unfold logit hidden
  refine congrArg₂ (· + ·) (congrArg₂ (· + ·) (Finset.sum_congr rfl fun j _ => ?_) (Finset.sum_congr rfl fun j _ => ?_)) ?_
  · rw [iblk3_apply, iblk4_apply]
    refine congrArg (fun s => min 1 (max 0 (s + a3 m c (ix1 j))) * a4 m c (ix2 (0 : Fin 1) (lo j))) (Finset.sum_congr rfl fun k _ => ?_)
    rw [iblk0_apply m c t p k r hr, iblk2_apply]
  · rw [iblk3_apply, iblk5_apply]
    refine congrArg (fun s => min 1 (max 0 (s + a3 m c (ix1 j))) * a4 m c (ix2 (0 : Fin 1) (hi j))) (Finset.sum_congr rfl fun k _ => ?_)
    rw [iblk1_apply m c t p k r hr, iblk2_apply]
  · exact iblk6_apply m c t

/-- An index of the result is in point `t`'s block iff each coordinate is in the block's range on its axis. -/
theorem mem_block (t : Fin cfg0.N) (i : S16384x1.Idx) :
    i ∈ ((cfg0.win 7).blk t).view.set
      ↔ ∀ a : Fin 2, win0_7.index t a * S1024x1.size a ≤ (i a).val ∧ (i a).val < win0_7.index t a * S1024x1.size a + S1024x1.size a := by
  show i ∈ ((View.whole main_v6).slice (win0_7.rect t)).set ↔ _
  rw [View.set_slice_whole, Rect.mem_set_unit]
  exact Iff.rfl

/-- Every row of the result is written back by some point: row `i` by point `i / 1024`. -/
theorem covered (i : S16384x1.Idx) :
    ∃ t : Fin cfg0.N, (cfg0.win 7).flush t = true ∧ i ∈ ((cfg0.win 7).blk t).view.set := by
  have hi0 : (i 0).val < 16384 := (i 0).isLt
  have hi1 : (i 1).val < 1 := (i 1).isLt
  have hN : cfg0.N = 16 := N_0
  let t : Fin cfg0.N := ⟨(i 0).val / 1024, by rw [hN]; omega⟩
  have htv : t.val = (i 0).val / 1024 := rfl
  obtain ⟨-, -, -, -, -, -, -, -, -, -, -, -, -, -, h70, h71⟩ := index_facts t
  refine ⟨t, flush0_7 t, ?_⟩
  rw [mem_block]
  intro a
  match a with
  | ⟨0, _⟩ =>
    show win0_7.index t (0 : Fin 2) * 1024 ≤ (i 0).val ∧ (i 0).val < win0_7.index t (0 : Fin 2) * 1024 + 1024
    rw [h70, htv]; omega
  | ⟨1, _⟩ =>
    show win0_7.index t (1 : Fin 2) * 1 ≤ (i 1).val ∧ (i 1).val < win0_7.index t (1 : Fin 2) * 1 + 1
    rw [h71]; omega

/-- The result array after the run is `G` of the argument arrays. -/
theorem final (c : Dev nD) :
    (dats m 0 c).arrAt 7 cfg0.N = G (a0 m c) (a1 m c) (a2 m c) (a3 m c) (a4 m c) (a5 m c) :=
  (dats m 0 c).arrAt_eq_of_cover 7 (G (a0 m c) (a1 m c) (a2 m c) (a3 m c) (a4 m c) (a5 m c))
    (fun t _ => flushed_eq m c t) covered

/-- The kernel's run, read: the result array at `G` of the arguments, the arguments unchanged. -/
theorem kernel_run : θ_run defs (onTc (τ := τ) (main (F := Ideal))) ⟨m, fun _ => 0, ρ⟩ fun r => ∀ c : Dev nD,
      r.2.mem ((c : Thread nD τ).loc main_v6) = G (a0 m c) (a1 m c) (a2 m c) (a3 m c) (a4 m c) (a5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩)
    (Cert.KernelIdeal.ValueP.run_blocks m ρ)

end Cert.Perspective

end
-- ==== Proof.ReferenceValue.lean ====
/-
  The reference's result is the specification `G`.

  The reference forms both first-layer matrices `x0 · wᵀ + b` and `x1 · wᵀ + b`, joins them side by side into a
  [16384, 1024] matrix, clips it to [0, 1], multiplies by `vᵀ`, adds `c` and applies `1 / (1 + exp (-·))`.
  Read at row `r`: an entry of the joined matrix in columns 0 … 511 is the first matrix's entry and in columns
  512 … 1023 the second's, so the product with `vᵀ`, a sum over 1024 columns, is the sum over the first half plus
  the sum over the second half: the two sums of `logit`.  The quotient `1 / (1 + exp (-t))` is the logistic function
  of `t` by definition, on every extended real.
-/
import proofs.«123977_j42408507081247_2_alg».proof.Proof.Gen.ReferenceIdeal.Read
import proofs.«123977_j42408507081247_2_alg».proof.Proof.PerspectiveSpec
import Idealize.ShloMosaic.Lib.Pipeline.Value
import Idealize.ShloMosaic.Lib.ValueIdx
import Idealize.ShloMosaic.PureOps.Ideal.Laws

noncomputable section

open scoped BigOperators

namespace Cert.Perspective

open Idealize.ShloMosaic Idealize.ShloMosaic.ValueIdx Cert.ReferenceIdeal Cert.ReferenceIdeal.Read

variable (x0 x1 : (⟨S16384x768, .f32⟩ : BufTy).Contents (Elt Ideal)) (x2 : (⟨S512x768, .f32⟩ : BufTy).Contents (Elt Ideal))
  (x3 : (⟨S512, .f32⟩ : BufTy).Contents (Elt Ideal)) (x4 : (⟨S1x1024, .f32⟩ : BufTy).Contents (Elt Ideal))
  (x5 : (⟨S1, .f32⟩ : BufTy).Contents (Elt Ideal))

/-- The first matrix `x0 · wᵀ + b` at `(r, j)`. -/
theorem ref_affine0 (r : Fin 16384) (j : Fin 512) :
    val_main_v4 (F := Ideal) x0 x2 x3 (ix2 r j) = (∑ k : Fin 768, x0 (ix2 r k) * x2 (ix2 j k)) + x3 (ix1 j) := by
  rw [val_main_v4_apply, val_main_v1_apply, val_main_v3_apply, val_main_v2_apply]
  refine congrArg₂ (· + ·) (Finset.sum_congr rfl fun k _ => ?_) (congrArg x3 ?_)
  · rw [val_main_v0_apply]
    refine congrArg₂ (· * ·) (congrArg x0 ?_) (congrArg x2 ?_) <;>
      (funext a; match a with | ⟨0, _⟩ => rfl | ⟨1, _⟩ => rfl)
  · funext a; match a with | ⟨0, _⟩ => rfl

/-- The second matrix `x1 · wᵀ + b` at `(r, j)`. -/
theorem ref_affine1 (r : Fin 16384) (j : Fin 512) :
    val_main_v9 (F := Ideal) x1 x2 x3 (ix2 r j) = (∑ k : Fin 768, x1 (ix2 r k) * x2 (ix2 j k)) + x3 (ix1 j) := by
  rw [val_main_v9_apply, val_main_v6_apply, val_main_v8_apply, val_main_v7_apply]
  refine congrArg₂ (· + ·) (Finset.sum_congr rfl fun k _ => ?_) (congrArg x3 ?_)
  · rw [val_main_v5_apply]
    refine congrArg₂ (· * ·) (congrArg x1 ?_) (congrArg x2 ?_) <;>
      (funext a; match a with | ⟨0, _⟩ => rfl | ⟨1, _⟩ => rfl)
  · funext a; match a with | ⟨0, _⟩ => rfl

/-- The joined matrix in its first 512 columns is the first matrix. -/
theorem ref_joined_lo (r : Fin 16384) (j : Fin 512) :
    val_main_v10 (F := Ideal) x0 x1 x2 x3 (ix2 r (lo j)) = val_main_v4 (F := Ideal) x0 x2 x3 (ix2 r j) := by
  unfold val_main_v10
  exact concatenate_pair_apply_left (t := S16384x1024) (s₁ := S16384x512) (s₂ := S16384x512) (1 : Fin 2) _ _ _
    (ix2 r (lo j)) rfl (ix2 r j) (fun b => match b with | ⟨0, _⟩ => rfl | ⟨1, _⟩ => rfl)

/-- The joined matrix in its last 512 columns is the second matrix. -/
theorem ref_joined_hi (r : Fin 16384) (j : Fin 512) :
    val_main_v10 (F := Ideal) x0 x1 x2 x3 (ix2 r (hi j)) = val_main_v9 (F := Ideal) x1 x2 x3 (ix2 r j) := by
  unfold val_main_v10
  exact concatenate_pair_apply_right (t := S16384x1024) (s₁ := S16384x512) (s₂ := S16384x512) (1 : Fin 2) _ _ _
    (ix2 r (hi j)) rfl rfl (ix2 r j)
    (fun b hb => match b, hb with | ⟨0, _⟩, _ => rfl | ⟨1, _⟩, hb => absurd rfl hb)
    (by show j.val + 512 = 512 + j.val; omega)

/-- The clipped joined matrix at `(r, k)` from the joined matrix there. -/
theorem ref_clip (r : Fin 16384) (k : Fin 1024) :
    val_main_v11 (F := Ideal) x0 x1 x2 x3 (ix2 r k) = min 1 (max 0 (val_main_v10 (F := Ideal) x0 x1 x2 x3 (ix2 r k))) := by
  rw [val_main_v11_apply, val_main_call0_v4_apply, val_main_call0_v3_apply, val_main_cst_0_apply, val_main_call0_v2_apply,
    val_main_call0_v1_apply, val_main_call0_v0_apply, val_main_cst_apply]
  simp only [Ideal.minimumf_def, Ideal.maximumf_def, Ideal.ofBits_def, Ideal.ofBits_zero_f32, one_f32]

/-- The value before the logistic step, at row `r`, is the specification's `logit`. -/
theorem ref_logit (r : Fin 16384) (u : Fin 1) :
    val_main_v16 (F := Ideal) x0 x1 x2 x3 x4 x5 (ix2 r u) = logit x0 x1 x2 x3 x4 x5 r := by
  have hu : u.val = 0 := by omega
  rw [val_main_v16_apply, val_main_v13_apply, val_main_v15_apply, val_main_v14_apply]
  unfold logit
  refine congrArg₂ (· + ·) ?_ (congrArg x5 ?_)
  · rw [sum_halves]
    refine congrArg₂ (· + ·) (Finset.sum_congr rfl fun j _ => ?_) (Finset.sum_congr rfl fun j _ => ?_)
    · have e : lidx_main_v13 (ix2 r u) (lo j) = ix2 r (lo j) := funext fun a => match a with | ⟨0, _⟩ => rfl | ⟨1, _⟩ => rfl
      rw [e, ref_clip, ref_joined_lo, ref_affine0, val_main_v12_apply]
      unfold hidden
      refine congrArg (_ * ·) (congrArg x4 ?_)
      funext a; apply Fin.ext
      match a with | ⟨0, _⟩ => exact hu | ⟨1, _⟩ => rfl
    · have e : lidx_main_v13 (ix2 r u) (hi j) = ix2 r (hi j) := funext fun a => match a with | ⟨0, _⟩ => rfl | ⟨1, _⟩ => rfl
      rw [e, ref_clip, ref_joined_hi, ref_affine1, val_main_v12_apply]
      unfold hidden
      refine congrArg (_ * ·) (congrArg x4 ?_)
      funext a; apply Fin.ext
      match a with | ⟨0, _⟩ => exact hu | ⟨1, _⟩ => rfl
  · funext a; match a with | ⟨0, _⟩ => rfl

/-- The reference's result array is `G` of its arguments. -/
theorem reference_eq_G : val_main_v22 (F := Ideal) x0 x1 x2 x3 x4 x5 = G x0 x1 x2 x3 x4 x5 := by
  funext i
  obtain ⟨r, u, rfl⟩ : ∃ (r : Fin 16384) (u : Fin 1), i = ix2 r u := ⟨i 0, i 1, eq_ix2 i⟩
  rw [val_main_v22_apply, val_main_v21_apply, val_main_cst_2_apply, val_main_v20_apply, val_main_v19_apply, val_main_cst_1_apply,
    val_main_v18_apply, val_main_v17_apply, ref_logit]
  simp only [Ideal.ofBits_def, one_f32]
  rfl

end Cert.Perspective

end
-- ==== Proof.lean ====
/-
  The certificate's claim.

  Kernel: on each block of 1024 rows, two [1024, 768] × [768, 512] products with the transposed first-layer weights,
  bias, clip to [0, 1], then each clipped row against its half of the second-layer weights by a product and a row sum,
  the two sums added, the second bias added, the logistic function.
  Reference: the same two first-layer matrices joined side by side into [16384, 1024], clipped, one product with the
  transposed [1, 1024] second-layer weights, bias, `1 / (1 + exp (-·))`.
  At the exact values both are the function `Cert.Perspective.G` of the six arguments: a change of float format is the
  identity, the product over 1024 joined columns is the sum over the first 512 plus the sum over the last 512, and
  `1 / (1 + exp (-t))` is the logistic function of `t` on every extended real.  No step divides, cancels or
  distributes, so the precondition (finite inputs) is never opened.  The idealization rewrote no operation, so
  `preserves` is `True`.  The three frames: the two kernels' are their frame certificates; the reference's is its run
  with the result dropped.
-/
import proofs.«123977_j42408507081247_2_alg».proof.Defs
import proofs.«123977_j42408507081247_2_alg».proof.Proof.Gen.Kernel
import proofs.«123977_j42408507081247_2_alg».proof.Proof.Gen.Kernel.Skeleton
import proofs.«123977_j42408507081247_2_alg».proof.Proof.Gen.Kernel.Launch
import proofs.«123977_j42408507081247_2_alg».proof.Proof.Gen.Kernel.Points
import proofs.«123977_j42408507081247_2_alg».proof.Proof.Gen.Kernel.Frame
import proofs.«123977_j42408507081247_2_alg».proof.Proof.Gen.KernelIdeal
import proofs.«123977_j42408507081247_2_alg».proof.Proof.Gen.KernelIdeal.Skeleton
import proofs.«123977_j42408507081247_2_alg».proof.Proof.Gen.KernelIdeal.Launch
import proofs.«123977_j42408507081247_2_alg».proof.Proof.Gen.KernelIdeal.Points
import proofs.«123977_j42408507081247_2_alg».proof.Proof.Gen.KernelIdeal.Frame
import proofs.«123977_j42408507081247_2_alg».proof.Proof.Gen.ReferenceIdeal
import proofs.«123977_j42408507081247_2_alg».proof.Proof.Gen.Pre_finite_inputs
import proofs.«123977_j42408507081247_2_alg».proof.Proof.Gen.ReferenceIdeal.Run
import proofs.«123977_j42408507081247_2_alg».proof.Proof.Gen.ReferenceIdeal.Read
import proofs.«123977_j42408507081247_2_alg».proof.Proof.KernelArray
import proofs.«123977_j42408507081247_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `G` of the (agreeing) arguments in their result arrays. -/
theorem algebraic : Cert.algebraic_KernelIdeal_ReferenceIdeal := by
  intro m ρ m' ρ' _ hagree
  refine ⟨fun c => Cert.Perspective.G (Cert.Perspective.a0 m c) (Cert.Perspective.a1 m c) (Cert.Perspective.a2 m c)
      (Cert.Perspective.a3 m c) (Cert.Perspective.a4 m c) (Cert.Perspective.a5 m c), Cert.Perspective.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Perspective.reference_eq_G, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
